-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S1024x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16x16 : Shape := ⟨3, ![16384, 16, 16]⟩
abbrev S1024x4 : Shape := ⟨2, ![1024, 4]⟩
abbrev S4 : Shape := ⟨1, ![4]⟩
abbrev S1024x1024 : Shape := ⟨2, ![1024, 1024]⟩
abbrev S1024 : Shape := ⟨1, ![1024]⟩
abbrev S_ : Shape := ⟨0, ![]⟩

class Facts : Prop where
  bcast_S_S1024x4 : S_.BroadcastsInDim S1024x4 (![] : Fin 0 → Fin S1024x4.rank)
  reducesTo_S1024x4_S_d0_1 : S1024x4.ReducesTo [0, 1] S_
  h_S_ : 0 < S_.numel
  bcast_S_S4 : S_.BroadcastsInDim S4 (![] : Fin 0 → Fin S4.rank)
  reducesTo_S4_S_d0 : S4.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : IVec S16384x16x16 32) (main_arg1 : FVec F S1024x4 .f32) (main_arg2 : FVec F S4 .f32) (main_arg3 : FVec F S1024x1024 .f32) (main_arg4 : FVec F S1024 .f32) : IVec S_ 1 :=
  let main_v0 : FVec F S1024x4 .f32 := Host.absf main_arg1
  let main_cst : FVec F S_ .f32 := constant S_ .f32 0x7F800000#32
  let main_v1 : FVec F S1024x4 .f32 := broadcastInDim S1024x4 ![] bcast_S_S1024x4 main_cst
  let main_v2 : IVec S1024x4 1 := cmpf .olt main_v0 main_v1
  let main_c : IVec S_ 1 := constantI S_ 1 1#1
  let main_v3 : IVec S_ 1 := (fun x v => Host.reduce IntOp.andi x v reducesTo_S1024x4_S_d0_1 h_S_) main_v2 main_c
  let main_v4 : FVec F S4 .f32 := Host.absf main_arg2
  let main_cst_0 : FVec F S_ .f32 := constant S_ .f32 0x7F800000#32
  let main_v5 : FVec F S4 .f32 := broadcastInDim S4 ![] bcast_S_S4 main_cst_0
  let main_v6 : IVec S4 1 := cmpf .olt main_v4 main_v5
  let main_c_1 : IVec S_ 1 := constantI S_ 1 1#1
  let main_v7 : IVec S_ 1 := (fun x v => Host.reduce IntOp.andi x v reducesTo_S4_S_d0 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S16384x16x16 : Shape := ⟨3, ![16384, 16, 16]⟩
abbrev S1024x4 : Shape := ⟨2, ![1024, 4]⟩
abbrev S4 : Shape := ⟨1, ![4]⟩
abbrev S1024x1024 : Shape := ⟨2, ![1024, 1024]⟩
abbrev S1024 : Shape := ⟨1, ![1024]⟩
abbrev S_ : Shape := ⟨0, ![]⟩
abbrev S16384x16x16x1 : Shape := ⟨4, ![16384, 16, 16, 1]⟩
abbrev S16384x16x16x4 : Shape := ⟨4, ![16384, 16, 16, 4]⟩
abbrev S1x1x1x4 : Shape := ⟨4, ![1, 1, 1, 4]⟩
abbrev S16384x1024 : Shape := ⟨2, ![16384, 1024]⟩
abbrev S1x1024 : Shape := ⟨2, ![1, 1024]⟩

abbrev nBuf : Space → Nat
  | .hbm => 24
  | .vmem => 7
  | .smem => 0
  | _ => 0

abbrev bufTy : (tb : Table) → Fin (tcTables nBuf tb) → BufTy
  | .hbm, ⟨0, _⟩ => ⟨S16384x16x16, .i32⟩
  | .hbm, ⟨1, _⟩ => ⟨S1024x4, .f32⟩
  | .hbm, ⟨2, _⟩ => ⟨S4, .f32⟩
  | .hbm, ⟨3, _⟩ => ⟨S1024x1024, .f32⟩
  | .hbm, ⟨4, _⟩ => ⟨S1024, .f32⟩
  | .hbm, ⟨5, _⟩ => ⟨S_, .i32⟩
  | .hbm, ⟨6, _⟩ => ⟨S16384x16x16, .i32⟩
  | .hbm, ⟨7, _⟩ => ⟨S16384x16x16, .i1⟩
  | .hbm, ⟨8, _⟩ => ⟨S_, .i32⟩
  | .hbm, ⟨9, _⟩ => ⟨S16384x16x16, .i32⟩
  | .hbm, ⟨10, _⟩ => ⟨S16384x16x16, .i32⟩
  | .hbm, ⟨11, _⟩ => ⟨S16384x16x16, .i32⟩
  | .hbm, ⟨12, _⟩ => ⟨S16384x16x16x1, .i32⟩
  | .hbm, ⟨13, _⟩ => ⟨S16384x16x16x4, .f32⟩
  | .hbm, ⟨14, _⟩ => ⟨S1x1x1x4, .f32⟩
  | .hbm, ⟨15, _⟩ => ⟨S16384x16x16x4, .f32⟩
  | .hbm, ⟨16, _⟩ => ⟨S16384x16x16x4, .f32⟩
  | .hbm, ⟨17, _⟩ => ⟨S16384x1024, .f32⟩
  | .hbm, ⟨18, _⟩ => ⟨S1024x1024, .bf16⟩
  | .hbm, ⟨19, _⟩ => ⟨S1024x1024, .f32⟩
  | .hbm, ⟨20, _⟩ => ⟨S1024x1024, .f32⟩
  | .hbm, ⟨21, _⟩ => ⟨S1024x1024, .bf16⟩
  | .hbm, ⟨22, _⟩ => ⟨S1x1024, .f32⟩
  | .hbm, ⟨23, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | _, _ => ⟨S16384x16x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S16384x16x16 : S_.BroadcastsInDim S16384x16x16 (![] : Fin 0 → Fin S16384x16x16.rank)
  bcast_S16384x16x16_S16384x16x16x1_0_1_2 : S16384x16x16.BroadcastsInDim S16384x16x16x1 (![0, 1, 2] : Fin 3 → Fin S16384x16x16x1.rank)
  bcast_S4_S1x1x1x4_3 : S4.BroadcastsInDim S1x1x1x4 (![3] : Fin 1 → Fin S1x1x1x4.rank)
  bcast_S1x1x1x4_S16384x16x16x4_0_1_2_3 : S1x1x1x4.BroadcastsInDim S16384x16x16x4 (![0, 1, 2, 3] : Fin 4 → Fin S16384x16x16x4.rank)
  shapeCasts_S16384x16x16x4_S16384x1024 : S16384x16x16x4.ShapeCasts S16384x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  gather_S1024x4_S16384x16x16x1_S16384x16x16x4_3_0_n_n_0_3_14_wf : GatherDims.WF S1024x4 S16384x16x16x1 S16384x16x16x4 [3] [0] [] [0] [] 3 ![1, 4]
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x1024.size a
  hwx0_4 : ∀ i : grid0.Coords, EltTy.bits .f32 = 32 ∨ (Rect.block (s := S16384x1024) S1024x1024.size (cc0_transform_4 i) (hinb0_4 i)).WholeWords (EltTy.packing .f32)

variable [Facts₀]

def gather_S1024x4_S16384x16x16x1_S16384x16x16x4_3_0_n_n_0_3_14 : GatherDims S1024x4 S16384x16x16x1 S16384x16x16x4 where
  offsetDims := [3]
  collapsedSliceDims := [0]
  operandBatchingDims := []
  startIndicesBatchingDims := []
  startIndexMap := [0]
  indexVectorDim := 3
  sliceSizes := ![1, 4]
  wf := gather_S1024x4_S16384x16x16x1_S16384x16x16x4_3_0_n_n_0_3_14_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v10) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x16x16 : Shape := ⟨3, ![16384, 16, 16]⟩
abbrev S1024x4 : Shape := ⟨2, ![1024, 4]⟩
abbrev S4 : Shape := ⟨1, ![4]⟩
abbrev S1024x1024 : Shape := ⟨2, ![1024, 1024]⟩
abbrev S1024 : Shape := ⟨1, ![1024]⟩
abbrev S_ : Shape := ⟨0, ![]⟩
abbrev S16384x16x16x1 : Shape := ⟨4, ![16384, 16, 16, 1]⟩
abbrev S16384x16x16x4 : Shape := ⟨4, ![16384, 16, 16, 4]⟩
abbrev S1x1x1x4 : Shape := ⟨4, ![1, 1, 1, 4]⟩
abbrev S16384x1024 : Shape := ⟨2, ![16384, 1024]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S16384x16x16, .i32⟩
  | .hbm, ⟨1, _⟩ => ⟨S1024x4, .f32⟩
  | .hbm, ⟨2, _⟩ => ⟨S4, .f32⟩
  | .hbm, ⟨3, _⟩ => ⟨S1024x1024, .f32⟩
  | .hbm, ⟨4, _⟩ => ⟨S1024, .f32⟩
  | .hbm, ⟨5, _⟩ => ⟨S_, .i32⟩
  | .hbm, ⟨6, _⟩ => ⟨S16384x16x16, .i32⟩
  | .hbm, ⟨7, _⟩ => ⟨S16384x16x16, .i1⟩
  | .hbm, ⟨8, _⟩ => ⟨S_, .i32⟩
  | .hbm, ⟨9, _⟩ => ⟨S16384x16x16, .i32⟩
  | .hbm, ⟨10, _⟩ => ⟨S16384x16x16, .i32⟩
  | .hbm, ⟨11, _⟩ => ⟨S16384x16x16, .i32⟩
  | .hbm, ⟨12, _⟩ => ⟨S16384x16x16x1, .i32⟩
  | .hbm, ⟨13, _⟩ => ⟨S16384x16x16x4, .f32⟩
  | .hbm, ⟨14, _⟩ => ⟨S1x1x1x4, .f32⟩
  | .hbm, ⟨15, _⟩ => ⟨S16384x16x16x4, .f32⟩
  | .hbm, ⟨16, _⟩ => ⟨S16384x16x16x4, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | _, _ => ⟨S16384x16x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S16384x16x16 : S_.BroadcastsInDim S16384x16x16 (![] : Fin 0 → Fin S16384x16x16.rank)
  bcast_S16384x16x16_S16384x16x16x1_0_1_2 : S16384x16x16.BroadcastsInDim S16384x16x16x1 (![0, 1, 2] : Fin 3 → Fin S16384x16x16x1.rank)
  bcast_S4_S1x1x1x4_3 : S4.BroadcastsInDim S1x1x1x4 (![3] : Fin 1 → Fin S1x1x1x4.rank)
  bcast_S1x1x1x4_S16384x16x16x4_0_1_2_3 : S1x1x1x4.BroadcastsInDim S16384x16x16x4 (![0, 1, 2, 3] : Fin 4 → Fin S16384x16x16x4.rank)
  shapeCasts_S16384x16x16x4_S16384x1024 : S16384x16x16x4.ShapeCasts S16384x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  gather_S1024x4_S16384x16x16x1_S16384x16x16x4_3_0_n_n_0_3_14_wf : GatherDims.WF S1024x4 S16384x16x16x1 S16384x16x16x4 [3] [0] [] [0] [] 3 ![1, 4]
  dot_S16384x1024_S1024x1024_S16384x1024_1_0_0_1_n_n_wf : DotDims.WF S16384x1024 S1024x1024 S16384x1024 [1] [0] [0] [1] [] []

variable [Facts₀]

def gather_S1024x4_S16384x16x16x1_S16384x16x16x4_3_0_n_n_0_3_14 : GatherDims S1024x4 S16384x16x16x1 S16384x16x16x4 where
  offsetDims := [3]
  collapsedSliceDims := [0]
  operandBatchingDims := []
  startIndicesBatchingDims := []
  startIndexMap := [0]
  indexVectorDim := 3
  sliceSizes := ![1, 4]
  wf := gather_S1024x4_S16384x16x16x1_S16384x16x16x4_3_0_n_n_0_3_14_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.Algebra.lean ====
/-
  The arithmetic of the split product on the extended reals.

  A value is split as hi + lo with hi the value itself and lo = value − hi. On the extended reals the difference of a
  REAL number with itself is 0, so lo vanishes, every product with it vanishes (0 · y = 0 for every extended real y,
  the infinities included), and a sum of zeros is 0. So

      (∑ a·w + ∑ a·(w − w)) + ∑ (a − a)·w + b  =  ∑ a·w + b

  whenever every a and every w is a real number; b may be any extended real. At an infinity the law fails
  (⊤ − ⊤ = ⊥), which is why the entries are asked to be real.

  Also here: an extended real whose absolute value max x (−x) lies strictly below ⊤ is a real number, the sum of two
  real numbers is one, and the all-ones-exponent pattern 0x7F800000 denotes ⊤ — what the finiteness test of an input
  compares against.
-/
import Idealize.ShloMosaic.PureOps.Ideal

noncomputable section

namespace Cert.Dense

open Idealize.ShloMosaic
open scoped BigOperators

/-- An extended real that is a real number. -/
def IsReal (x : EReal) : Prop := ∃ r : ℝ, x = (r : EReal)

/-- A real number minus itself is 0 on the extended reals. -/
theorem IsReal.sub_self {x : EReal} (hx : IsReal x) : x - x = 0 := by
  obtain ⟨r, rfl⟩ := hx
  rw [← EReal.coe_sub, _root_.sub_self, EReal.coe_zero]

/-- The sum of two real numbers is a real number. -/
theorem IsReal.add {x y : EReal} (hx : IsReal x) (hy : IsReal y) : IsReal (x + y) := by
  obtain ⟨r, rfl⟩ := hx
  obtain ⟨s, rfl⟩ := hy
  exact ⟨r + s, (EReal.coe_add r s).symm⟩

/-- An extended real whose absolute value is below ⊤ is a real number. -/
theorem isReal_of_abs_lt_top {x : EReal} (h : max x (-x) < ⊤) : IsReal x := by
  induction x using EReal.rec
  · simp at h
  · exact ⟨_, rfl⟩
  · simp at h

/-- The pattern of +infinity denotes ⊤. -/
theorem ofBits_inf : Ideal.ofBits .f32 0x7F800000#32 = (⊤ : EReal) := by
  simp [Ideal.ofBits, Ideal.ieee]

/-- The finiteness test of one element: |x| < +infinity, as the comparison's bit, says x is a real number. -/
theorem isReal_of_test {x : EReal}
    (h : Ideal.cmp .olt (max x (-x)) (Ideal.ofBits .f32 0x7F800000#32) = 1#1) : IsReal x := by
  rw [ofBits_inf] at h
  refine isReal_of_abs_lt_top ?_
  by_contra hn
  simp [Ideal.cmp, hn] at h

/-- THE COLLAPSE: with hi = a, lo = a − a on the left operand and hi = w, lo = wl on the right one, wl zero,
    hi·hi + hi·lo + lo·hi plus a bias is the plain product plus the bias, when every a is a real number. -/
theorem split_collapse {K : Type*} [Fintype K] (a w wl : K → EReal) (b : EReal)
    (ha : ∀ k, IsReal (a k)) (hwl : ∀ k, wl k = 0) :
    ((∑ k, a k * w k) + (∑ k, a k * wl k)) + (∑ k, (a k - a k) * w k) + b = (∑ k, a k * w k) + b := by
  have h1 : ∑ k, a k * wl k = 0 := Finset.sum_eq_zero fun k _ => by rw [hwl k, mul_zero]
  have h2 : ∑ k, (a k - a k) * w k = 0 := Finset.sum_eq_zero fun k _ => by rw [(ha k).sub_self, zero_mul]
  rw [h1, h2, add_zero, add_zero]

end Cert.Dense

end
-- ==== Proof.Spec.lean ====
/-
  The dense layer as one function of its arrays, in two arrangements.

  For a left array A of 16384 rows of 1024 entries, a weight W of 1024 × 1024 and a bias row r of 1024 entries, output
  entry (n, o) of the PLAIN layer is ∑ₖ A[n,k]·W[k,o] + r[o]. The SPLIT layer computes the same entry from a low part
  Wl of the weight and the left operand's own low part A − A:

      (∑ₖ A[n,k]·W[k,o] + ∑ₖ A[n,k]·Wl[k,o]) + ∑ₖ (A[n,k] − A[n,k])·W[k,o] + r[o].

  With Wl = W − W and every entry of A and W a real number the two agree entry by entry.
-/
import proofs.«141260_j30090540876219_2_alg».proof.Proof.Algebra
import Idealize.ShloMosaic.Lib.ValueIdx

noncomputable section

namespace Cert.Dense

open Idealize.ShloMosaic Idealize.ShloMosaic.ValueIdx
open scoped BigOperators

/-- The left array: 16384 rows of 1024 features. -/
abbrev SA : Shape := ⟨2, ![16384, 1024]⟩
/-- The weight: 1024 features by 1024 outputs. -/
abbrev SW : Shape := ⟨2, ![1024, 1024]⟩
/-- The bias as a row. -/
abbrev SR : Shape := ⟨2, ![1, 1024]⟩

/-- One entry of the split layer from a row a of the left operand, a column w of the weight, the column wl of its low
    part, and the bias entry b. -/
def splitEntry (a w wl : Fin 1024 → EReal) (b : EReal) : EReal :=
  ((∑ k, a k * w k) + (∑ k, a k * wl k)) + (∑ k, (a k - a k) * w k) + b

/-- One entry of the plain layer. -/
def plainEntry (a w : Fin 1024 → EReal) (b : EReal) : EReal := (∑ k, a k * w k) + b

/-- The row coordinate of an output index. -/
abbrev rowOf (i : SA.Idx) : Fin 16384 := ⟨(i 0).val, (i 0).isLt⟩
/-- The column coordinate of an output index. -/
abbrev colOf (i : SA.Idx) : Fin 1024 := ⟨(i 1).val, (i 1).isLt⟩

/-- The split layer, entry by entry. -/
def splitArr (A : SA.Idx → EReal) (W Wl : SW.Idx → EReal) (r : SR.Idx → EReal) : SA.Idx → EReal := fun i =>
  splitEntry (fun k => A (ix2 (rowOf i) k)) (fun k => W (ix2 k (colOf i))) (fun k => Wl (ix2 k (colOf i)))
    (r (ix2 (0 : Fin 1) (colOf i)))

/-- The plain layer, entry by entry. -/
def plainArr (A : SA.Idx → EReal) (W : SW.Idx → EReal) (r : SR.Idx → EReal) : SA.Idx → EReal := fun i =>
  plainEntry (fun k => A (ix2 (rowOf i) k)) (fun k => W (ix2 k (colOf i))) (r (ix2 (0 : Fin 1) (colOf i)))

/-- On real entries the split layer, its low weight part the weight minus itself, is the plain layer. -/
theorem splitArr_eq_plainArr (A : SA.Idx → EReal) (W : SW.Idx → EReal) (r : SR.Idx → EReal)
    (hA : ∀ i, IsReal (A i)) (hW : ∀ i, IsReal (W i)) :
    splitArr A W (fun i => W i - W i) r = plainArr A W r := by
  funext i
  exact split_collapse _ _ _ _ (fun k => hA _) (fun k => (hW _).sub_self)

end Cert.Dense

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.KernelValue.lean ====
/-
  The kernel's output array as the split layer of the arrays the region finds.

  The grid has 16 points; point t takes rows 1024·t … 1024·t + 1023 of the left array as its block, the whole weight,
  the whole low weight part and the whole bias row (their block index is (0, 0) at every point), and writes rows
  1024·t … 1024·t + 1023 of the output. The body forms three products into zero accumulators — block × weight,
  block × low part, (block − block) × weight — adds them in that order and adds the bias row broadcast down the rows.
  Read at entry (p, q) of the block each product is a sum over the 1024 contraction positions, so the entry is the
  split layer's entry at row 1024·t + p and column q. The 16 row blocks tile the output, so after the run the output
  array is the split layer of the four arrays, entry by entry.
-/
import proofs.«141260_j30090540876219_2_alg».proof.Proof.Gen.KernelIdeal.Value
import proofs.«141260_j30090540876219_2_alg».proof.Proof.Spec
import proofs.«141260_j30090540876219_2_alg».proof.Proof.LibPlainDot
import proofs.«141260_j30090540876219_2_alg».proof.Proof.LibRowBroadcasts
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.Dense.Kernel

open Cert.KernelIdeal Cert.KernelIdeal.Gen Cert.KernelIdeal.Value Cert.Dense

variable (m : (ℓ : Loc nD τ sig) → Buf (Elt Ideal) ℓ) (ρ : Dev nD → PrngReg)

theorem hz : (![0, 0] : Fin 2 → Nat) = fun _ => 0 := funext fun a => by fin_cases a <;> rfl

/-! ## The body's result at an entry of the block -/

/-- Entry (p, q) of what the body stores: the split layer's entry of row p of the left block, column q of the weight
    block and of the low-part block, and entry q of the bias row. -/
theorem payload_apply (x0 : Vec Ideal S1024x1024 .f32) (x1 x2 : Vec Ideal S1024x1024 .bf16) (x3 : Vec Ideal S1x1024 .f32)
    (p q : Fin 1024) :
    k0_pay1 (F := Ideal) x0 x1 x2 x3 (ix2 p q)
      = splitEntry (fun k => x0 (ix2 p k)) (fun k => x1 (ix2 k q)) (fun k => x2 (ix2 k q)) (x3 (ix2 (0 : Fin 1) q)) := by
  have hd : dot_S1024x1024_S1024x1024_S1024x1024_1_0_0_1_n_n
      = Cert.Lib.PlainDot.dims Cert.KernelIdeal.Gen.dot_S1024x1024_S1024x1024_S1024x1024_1_0_0_1_n_n_wf := rfl
  unfold k0_pay1 splitEntry
  dsimp only
  simp only [addf_apply]
  rw [hd, Cert.Lib.PlainDot.matmul_zero_apply, Cert.Lib.PlainDot.matmul_zero_apply,
    Cert.Lib.PlainDot.matmul_zero_apply, Cert.Lib.Rows.bcastRow_apply]
  simp only [truncf_apply, subf_apply, shapeCast_self]

/-- The same at any index y of the block, against the split layer of whole arrays at an index i, given that the
    block's row, the two columns and the bias entry are the arrays' at i's coordinates. -/
theorem payload_eq_splitArr (A : SA.Idx → EReal) (W Wl : SW.Idx → EReal) (r : SR.Idx → EReal)
    (x0 : Vec Ideal S1024x1024 .f32) (x1 x2 : Vec Ideal S1024x1024 .bf16) (x3 : Vec Ideal S1x1024 .f32)
    (y : S1024x1024.Idx) (i : SA.Idx)
    (h0 : ∀ k : Fin 1024, x0 (ix2 (⟨(y 0).val, (y 0).isLt⟩ : Fin 1024) k) = A (ix2 (rowOf i) k))
    (h1 : ∀ k : Fin 1024, x1 (ix2 k (⟨(y 1).val, (y 1).isLt⟩ : Fin 1024)) = W (ix2 k (colOf i)))
    (h2 : ∀ k : Fin 1024, x2 (ix2 k (⟨(y 1).val, (y 1).isLt⟩ : Fin 1024)) = Wl (ix2 k (colOf i)))
    (h3 : x3 (ix2 (0 : Fin 1) (⟨(y 1).val, (y 1).isLt⟩ : Fin 1024)) = r (ix2 (0 : Fin 1) (colOf i))) :
    k0_pay1 (F := Ideal) x0 x1 x2 x3 y = splitArr A W Wl r i := by
  have hy : y = ix2 (⟨(y 0).val, (y 0).isLt⟩ : Fin 1024) (⟨(y 1).val, (y 1).isLt⟩ : Fin 1024) := by
    funext a; match a with | ⟨0, _⟩ => rfl | ⟨1, _⟩ => rfl
  rw [hy, payload_apply]
  exact congr (congr (congr (congrArg splitEntry (funext h0)) (funext h1)) (funext h2)) h3

/-! ## The windows' block indices, decided over the grid -/

/-- The left array's and the output's blocks are row block t; the weight, its low part and the bias row stay at (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## Each input block, read off its array -/

/-- The left block at point t is rows 1024·t … of the left array. -/
theorem iblk0_apply (c : Dev nD) (t : Fin cfg0.N) (x : S1024x1024.Idx) (k : S16384x1024.Idx)
    (hk0 : (k 0).val = t.val * 1024 + (x 0).val) (hk1 : (k 1).val = (x 1).val) :
    (iblk m c 0 t : Vec Ideal S1024x1024 .f32) x = (V m c main_v10 : S16384x1024.Idx → EReal) k := by
  obtain ⟨e0, e1, -⟩ := idx_facts t
  unfold iblk
  rw [View.read_apply]
  show V m c main_v10 _ = V m c main_v10 _
  congr 1
  funext a
  apply Fin.ext
  match a with
  | ⟨0, _⟩ => show win0_0.index t 0 * 1024 + 1 * (x 0).val = (k 0).val; rw [e0, hk0]; omega
  | ⟨1, _⟩ => show win0_0.index t 1 * 1024 + 1 * (x 1).val = (k 1).val; rw [e1, hk1]; omega

/-- The weight block at any point is the weight. -/
theorem iblk1_apply (c : Dev nD) (t : Fin cfg0.N) (x : S1024x1024.Idx) :
    (iblk m c 1 t : Vec Ideal S1024x1024 .bf16) x = (V m c main_v11 : S1024x1024.Idx → EReal) x := by
  obtain ⟨-, -, e0, e1, -⟩ := idx_facts t
  unfold iblk
  rw [View.read_apply]
  show V m c main_v11 _ = V m c main_v11 _
  congr 1
  funext a
  apply Fin.ext
  match a with
  | ⟨0, _⟩ => show win0_1.index t 0 * 1024 + 1 * (x 0).val = (x 0).val; rw [e0]; omega
  | ⟨1, _⟩ => show win0_1.index t 1 * 1024 + 1 * (x 1).val = (x 1).val; rw [e1]; omega

/-- The low-part block at any point is the low part. -/
theorem iblk2_apply (c : Dev nD) (t : Fin cfg0.N) (x : S1024x1024.Idx) :
    (iblk m c 2 t : Vec Ideal S1024x1024 .bf16) x = (V m c main_v14 : S1024x1024.Idx → EReal) x := by
  obtain ⟨-, -, -, -, e0, e1, -⟩ := idx_facts t
  unfold iblk
  rw [View.read_apply]
  show V m c main_v14 _ = V m c main_v14 _
  congr 1
  funext a
  apply Fin.ext
  match a with
  | ⟨0, _⟩ => show win0_2.index t 0 * 1024 + 1 * (x 0).val = (x 0).val; rw [e0]; omega
  | ⟨1, _⟩ => show win0_2.index t 1 * 1024 + 1 * (x 1).val = (x 1).val; rw [e1]; omega

/-- The bias block at any point is the bias row. -/
theorem iblk3_apply (c : Dev nD) (t : Fin cfg0.N) (x : S1x1024.Idx) :
    (iblk m c 3 t : Vec Ideal S1x1024 .f32) x = (V m c main_v15 : S1x1024.Idx → EReal) x := by
  obtain ⟨-, -, -, -, -, -, e0, e1, -⟩ := idx_facts t
  unfold iblk
  rw [View.read_apply]
  show V m c main_v15 _ = V m c main_v15 _
  congr 1
  funext a
  apply Fin.ext
  match a with
  | ⟨0, _⟩ => show win0_3.index t 0 * 1 + 1 * (x 0).val = (x 0).val; rw [e0]; omega
  | ⟨1, _⟩ => show win0_3.index t 1 * 1024 + 1 * (x 1).val = (x 1).val; rw [e1]; omega

/-! ## What a point writes back, the cover, the array -/

/-- The split layer of the arrays as the region finds them. -/
abbrev result (c : Dev nD) : S16384x1024.Idx → EReal :=
  splitArr (V m c main_v10) (V m c main_v11) (V m c main_v14) (V m c main_v15)

/-- Point t writes back block t of the split layer. -/
theorem flushed_eq (c : Dev nD) (t : Fin cfg0.N) :
    (dats m 0 c).flushed 4 t = ((cfg0.win 4).blk t).view.read (Elt Ideal) (result m c) := by
  obtain ⟨-, -, -, -, -, -, -, -, e8, e9⟩ := idx_facts t
  show (cfg0.win 4).cut (grid0.coords t) ((dats m 0 c).after 4 t) = _
  rw [after0_4]
  unfold out0_4
  rw [View.canon_unit_zero hz]
  simp only [View.ld_unit_zero (S := S1024x1024) hz, View.ld_unit_zero (S := S1x1024) hz]
  funext j
  show k0_pay1 (F := Ideal) (iblk m c 0 t) (iblk m c 1 t) (iblk m c 2 t) (iblk m c 3 t) j
    = result m c (((cfg0.win 4).blk t).view.emb j)
  have hr : ((((cfg0.win 4).blk t).view.emb j) 0).val = t.val * 1024 + (j 0).val := by
    show win0_4.index t 0 * 1024 + 1 * (j 0).val = _; rw [e8]; omega
  have hc : ((((cfg0.win 4).blk t).view.emb j) 1).val = (j 1).val := by
    show win0_4.index t 1 * 1024 + 1 * (j 1).val = _; rw [e9]; omega
  refine payload_eq_splitArr _ _ _ _ _ _ _ _ j _ (fun k => ?_) (fun k => ?_) (fun k => ?_) ?_
  · exact iblk0_apply m c t _ _ hr rfl
  · rw [iblk1_apply]; exact congrArg _ (funext fun a => by match a with | ⟨0, _⟩ => rfl | ⟨1, _⟩ => exact Fin.ext hc.symm)
  · rw [iblk2_apply]; exact congrArg _ (funext fun a => by match a with | ⟨0, _⟩ => rfl | ⟨1, _⟩ => exact Fin.ext hc.symm)
  · rw [iblk3_apply]; exact congrArg _ (funext fun a => by match a with | ⟨0, _⟩ => rfl | ⟨1, _⟩ => exact Fin.ext hc.symm)

/-- An index is in point t's block iff each coordinate is in the block's range on its axis. -/
theorem mem_blk (t : Fin cfg0.N) (i : S16384x1024.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v16).slice (win0_4.rect t)).set ↔ _
  rw [View.set_slice_whole, Rect.mem_set_unit]
  exact Iff.rfl

/-- Every output index (n, o) lies in the block of point n / 1024 (rounded down): the 16 row blocks tile the output. -/
theorem cover (i : S16384x1024.Idx) :
    ∃ t : Fin cfg0.N, (cfg0.win 4).flush t = true ∧ i ∈ ((cfg0.win 4).blk t).view.set := by
  have h0 : (i 0).val < 16384 := (i 0).isLt
  have h1 : (i 1).val < 1024 := (i 1).isLt
  have hN : cfg0.N = 16 := N_0
  have ht : (i 0).val / 1024 < cfg0.N := by rw [hN]; omega
  obtain ⟨-, -, -, -, -, -, -, -, e8, e9⟩ := idx_facts ⟨(i 0).val / 1024, ht⟩
  refine ⟨⟨(i 0).val / 1024, ht⟩, flush0_4 _, ?_⟩
  rw [mem_blk]
  intro a
  match a with
  | ⟨0, _⟩ =>
    show win0_4.index ⟨(i 0).val / 1024, ht⟩ 0 * 1024 ≤ (i 0).val
      ∧ (i 0).val < win0_4.index ⟨(i 0).val / 1024, ht⟩ 0 * 1024 + 1024
    rw [e8]
    show (i 0).val / 1024 * 1024 ≤ (i 0).val ∧ (i 0).val < (i 0).val / 1024 * 1024 + 1024
    omega
  | ⟨1, _⟩ =>
    show win0_4.index ⟨(i 0).val / 1024, ht⟩ 1 * 1024 ≤ (i 1).val
      ∧ (i 1).val < win0_4.index ⟨(i 0).val / 1024, ht⟩ 1 * 1024 + 1024
    rw [e9]
    omega

/-- The output array after the run is the split layer of the arrays the region finds. -/
theorem final (c : Dev nD) : (dats m 0 c).arrAt 4 cfg0.N = result m c :=
  (dats m 0 c).arrAt_eq_of_cover 4 (result m c) (fun t _ => flushed_eq m c t) cover

/-- The run, read: the output at the split layer, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.Dense.Kernel

end
-- ==== Proof.Finite.lean ====
/-
  The precondition read back: every entry of the embedding table, of the embedding bias and of the dense weight is a
  real number.

  The printed predicate is the conjunction of four tests, one per float input, each "every element has absolute value
  strictly below +infinity" folded by `and` into one bit. The predicate being all ones gives each fold the value one,
  each fold being one gives every element's comparison bit the value one, and a comparison bit of one says the
  element's absolute value lies below ⊤ — so the element is a real number. The dense bias is tested too, but nothing
  below needs it: it is only ever added once at the end.
-/
import proofs.«141260_j30090540876219_2_alg».proof.Pre_finite_inputs
import proofs.«141260_j30090540876219_2_alg».proof.Proof.Algebra
import Idealize.ShloMosaic.Lib.ReduceAll
import Idealize.ShloMosaic.Lib.ValueIdx
import Idealize.ShloMosaic.Lib.Pipeline.Value

noncomputable section

namespace Cert.Dense

open Idealize.ShloMosaic Cert.Pre_finite_inputs

/-- The scalar shape has one index. -/
instance : Subsingleton S_.Idx := ⟨fun a b => funext fun d => d.elim0⟩

variable [Cert.Pre_finite_inputs.Facts]
open Cert.Pre_finite_inputs.Facts

/-- One input's test, element by element. -/
theorem isReal_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x) (broadcastInDim s ![] hb (constant (F := Ideal) S_ .f32 0x7F800000#32)))
      (constantI S_ 1 1#1) hr hu ValueIdx.ix0 = 1#1) (i : s.Idx) : IsReal (x i) := by
  have hi := Host.reduce_andi_all _ _ hr hu ValueIdx.ix0 h i
  have hc : (broadcastInDim s ![] hb (constant (F := Ideal) S_ .f32 0x7F800000#32)) i = Ideal.ofBits .f32 0x7F800000#32 :=
    broadcastInDim_apply _ hb _ i ValueIdx.ix0 (fun a => a.elim0)
  have hi' : Ideal.cmp .olt (max (x i) (-(x i))) ((broadcastInDim s ![] hb (constant (F := Ideal) S_ .f32 0x7F800000#32)) i) = 1#1 := hi
  rw [hc] at hi'
  exact isReal_of_test hi'

/-- The precondition gives the three arrays the value proof needs real entries. -/
theorem isReal_of_pre (a0 : IVec S16384x16x16 32) (a1 : FVec Ideal S1024x4 .f32) (a2 : FVec Ideal S4 .f32)
    (a3 : FVec Ideal S1024x1024 .f32) (a4 : FVec Ideal S1024 .f32)
    (h : fn (F := Ideal) a0 a1 a2 a3 a4 = fun _ => 1#1) :
    (∀ i, IsReal (a1 i)) ∧ (∀ i, IsReal (a2 i)) ∧ (∀ i, IsReal (a3 i)) := by
  have h0 := congrFun h ValueIdx.ix0
  dsimp only [fn, fn_part1] at h0
  obtain ⟨h123, _⟩ := IntOp.andi_eq_one.1 h0
  obtain ⟨h12, h3⟩ := IntOp.andi_eq_one.1 h123
  obtain ⟨h1, h2⟩ := IntOp.andi_eq_one.1 h12
  exact ⟨isReal_of_all a1 bcast_S_S1024x4 reducesTo_S1024x4_S_d0_1 h_S_ h1,
    isReal_of_all a2 bcast_S_S4 reducesTo_S4_S_d0 h_S_ h2,
    isReal_of_all a3 bcast_S_S1024x1024 reducesTo_S1024x1024_S_d0_1 h_S_ h3⟩

end Cert.Dense

end
-- ==== Proof.Bridge.lean ====
/-
  The two programs compute one function.

  Both programs first build the same left array from the token ids, the embedding table and the embedding bias: each
  token id selects a row of the table (a negative id counted from the end, an id outside the table clamped into it), the
  bias is added, and a token grid's 16 × 16 × 4 values are laid out as one row of 1024. Whatever the ids are, every entry
  of that array is an entry of the table plus an entry of the bias, so it is a real number when those are.

  The reference then takes the plain layer of that array, the dense weight and the dense bias. The kernel's host part
  splits the weight into itself and "weight minus itself" (a change of float format being the identity on the extended
  reals) and reshapes the bias to a row; its region computes the split layer of these. With the weight's entries real
  the low part is zero, with the left array's entries real its own low part is zero, and the split layer is the plain
  one. A length-1024 vector reshaped to a 1 × 1024 row and the same vector broadcast along dimension 1 are one array.
-/
import proofs.«141260_j30090540876219_2_alg».proof.Defs
import proofs.«141260_j30090540876219_2_alg».proof.Proof.Gen.ReferenceIdeal.Read
import proofs.«141260_j30090540876219_2_alg».proof.Proof.Gen.Pre_finite_inputs
import proofs.«141260_j30090540876219_2_alg».proof.Proof.KernelValue
import proofs.«141260_j30090540876219_2_alg».proof.Proof.Finite
import Idealize.ShloMosaic.Lib.StableHlo.Run

noncomputable section

open Idealize.ShloMosaic Idealize.ShloMosaic.TcCoe Idealize.SL.Sem Idealize.ShloMosaic.ValueIdx
open scoped BigOperators

/-! ## The reference, stage by stage -/

namespace Cert.Dense.Ref

open Cert.ReferenceIdeal Cert.ReferenceIdeal.Read Cert.Dense

/-- Every entry of the left array is a table entry plus a bias entry: real when those are. -/
theorem flat_isReal (x0 : (⟨S16384x16x16, .i32⟩ : BufTy).Contents (Elt Ideal)) (x1 : (⟨S1024x4, .f32⟩ : BufTy).Contents (Elt Ideal))
    (x2 : (⟨S4, .f32⟩ : BufTy).Contents (Elt Ideal)) (h1 : ∀ i, IsReal (x1 i)) (h2 : ∀ i, IsReal (x2 i)) (i : S16384x1024.Idx) :
    IsReal (val_main_v10 (F := Ideal) x0 x1 x2 i) := by
  rw [val_main_v10_apply, val_main_v9_apply]
  show IsReal (val_main_v6 (F := Ideal) x0 x1 (idx_main_v10 i) + val_main_v8 (F := Ideal) x2 (idx_main_v10 i))
  refine IsReal.add ?_ ?_
  · exact h1 _
  · rw [val_main_v8_apply, val_main_v7_apply]; exact h2 _

/-- The reference's result is the plain layer of the left array, the weight, and the bias as a row. -/
theorem result_eq (x0 : (⟨S16384x16x16, .i32⟩ : BufTy).Contents (Elt Ideal)) (x1 : (⟨S1024x4, .f32⟩ : BufTy).Contents (Elt Ideal))
    (x2 : (⟨S4, .f32⟩ : BufTy).Contents (Elt Ideal)) (x3 : (⟨S1024x1024, .f32⟩ : BufTy).Contents (Elt Ideal))
    (x4 : (⟨S1024, .f32⟩ : BufTy).Contents (Elt Ideal)) :
    val_main_v14 (F := Ideal) x0 x1 x2 x3 x4
      = plainArr (val_main_v10 (F := Ideal) x0 x1 x2) x3 (val_main_v12 (F := Ideal) x4) := by
  funext i
  have el : ∀ k : Fin 1024, lidx_main_v11 i k = ix2 (rowOf i) k := fun k => funext fun a => by
    match a with | ⟨0, _⟩ => rfl | ⟨1, _⟩ => rfl
  have er : ∀ k : Fin 1024, ridx_main_v11 i k = ix2 k (colOf i) := fun k => funext fun a => by
    match a with | ⟨0, _⟩ => rfl | ⟨1, _⟩ => rfl
  have eb : idx_main_v13 i = ix2 (0 : Fin 1) (colOf i) := funext fun a => by
    match a with | ⟨0, _⟩ => rfl | ⟨1, _⟩ => rfl
  rw [val_main_v14_apply, val_main_v11_apply, val_main_v13_apply]
  simp only [el, er, eb]
  rfl

end Cert.Dense.Ref

/-! ## The kernel's staged arrays, and its result as the plain layer -/

namespace Cert.Dense.Kernel

open Cert.KernelIdeal Cert.KernelIdeal.Gen Cert.Dense

variable (m : (ℓ : Loc nD τ sig) → Buf (Elt Ideal) ℓ)

/-- The token ids, as launched. -/
abbrev ids (c : Dev nD) : S16384x16x16.Idx → BitVec 32 := m ((c.tc : Thread nD τ).loc main_arg0)
/-- The embedding table, as launched. -/
abbrev table (c : Dev nD) : S1024x4.Idx → EReal := m ((c.tc : Thread nD τ).loc main_arg1)
/-- The embedding bias, as launched. -/
abbrev ebias (c : Dev nD) : S4.Idx → EReal := m ((c.tc : Thread nD τ).loc main_arg2)
/-- The dense weight, as launched. -/
abbrev weight (c : Dev nD) : S1024x1024.Idx → EReal := m ((c.tc : Thread nD τ).loc main_arg3)
/-- The dense bias, as launched. -/
abbrev dbias (c : Dev nD) : S1024.Idx → EReal := m ((c.tc : Thread nD τ).loc main_arg4)

/-- The left array the region finds is the one the reference builds. -/
theorem V_flat (c : Dev nD) : (V m c main_v10 : S16384x1024.Idx → EReal)
    = Cert.ReferenceIdeal.Read.val_main_v10 (F := Ideal) (ids m c) (table m c) (ebias m c) := by
  dsimp only [V, hostOps0]
  after_results
  rfl

/-- The weight block's array is the weight (the format change is the identity). -/
theorem V_weight (c : Dev nD) : (V m c main_v11 : S1024x1024.Idx → EReal) = weight m c := by
  dsimp only [V, hostOps0]
  after_results
  rfl

/-- The low part's array is the weight minus itself. -/
theorem V_low (c : Dev nD) : (V m c main_v14 : S1024x1024.Idx → EReal) = fun i => weight m c i - weight m c i := by
  dsimp only [V, hostOps0]
  after_results
  rfl

/-- The bias row's array is the dense bias reshaped to a row. -/
theorem V_bias (c : Dev nD) : (V m c main_v15 : S1x1024.Idx → EReal)
    = shapeCast S1x1024 (dbias m c) shapeCasts_S1024_S1x1024 := by
  dsimp only [V, hostOps0]
  after_results
  rfl

/-- Under the precondition the kernel's result is the plain layer of the reference's own left array, the weight, and
    the reference's bias row. -/
theorem result_eq (hpre : Cert.Pre_KernelIdeal m) (c : Dev nD) :
    result m c = plainArr (Cert.ReferenceIdeal.Read.val_main_v10 (F := Ideal) (ids m c) (table m c) (ebias m c))
      (weight m c) (Cert.ReferenceIdeal.Read.val_main_v12 (F := Ideal) (dbias m c)) := by
  obtain ⟨ht, hb, hw⟩ := isReal_of_pre _ _ _ _ _ (hpre c)
  unfold result
  rw [V_flat, V_weight, V_low, V_bias,
    Cert.Lib.Rows.castRow_eq_dimRow (dbias m c) shapeCasts_S1024_S1x1024 Cert.ReferenceIdeal.Gen.bcast_S1024_S1x1024_1]
  exact splitArr_eq_plainArr _ _ _ (fun i => Cert.Dense.Ref.flat_isReal _ _ _ ht hb i) hw

end Cert.Dense.Kernel

end
-- ==== Proof.lean ====
/-
  A dense layer over embedded tokens: the kernel's three-pass split product against the reference's plain product.

  Both programs embed a 16 × 16 grid of token ids per example through a 1024 × 4 table, add a 4-entry bias and lay the
  result out as a row of 1024 features; over 16384 examples this is the left array A. The reference returns
  A·W + b for the 1024 × 1024 weight W and the 1024-entry bias b. The kernel splits each operand X into a high part
  (X carried through a narrower float format) and a low part (X minus its high part) and returns
  A_hi·W_hi + A_hi·W_lo + A_lo·W_hi + b, row block by row block over a grid of 16 points.

  On the extended reals a change of float format is the identity, so A_hi = A, A_lo = A − A, W_hi = W, W_lo = W − W.
  Under the precondition every entry of the table, of the embedding bias and of W is a real number; an entry of A is a
  table entry plus a bias entry whatever the ids are, hence real. A real number minus itself is 0, 0 times any
  extended real is 0, and a sum of zeros is 0: the two cross products vanish and both programs return A·W + b, entry
  by entry. The dense bias b may be any extended real.

  The three frames are the generated ones (the reference's is its run with the result dropped). The idealization's one
  rewrite replaces "narrow then widen" by the identity at the left block, which is the rule's own statement.
-/
import proofs.«141260_j30090540876219_2_alg».proof.Defs
import proofs.«141260_j30090540876219_2_alg».proof.Proof.Gen.Kernel
import proofs.«141260_j30090540876219_2_alg».proof.Proof.Gen.Kernel.Skeleton
import proofs.«141260_j30090540876219_2_alg».proof.Proof.Gen.Kernel.Launch
import proofs.«141260_j30090540876219_2_alg».proof.Proof.Gen.Kernel.Points
import proofs.«141260_j30090540876219_2_alg».proof.Proof.Gen.Kernel.Frame
import proofs.«141260_j30090540876219_2_alg».proof.Proof.Gen.KernelIdeal
import proofs.«141260_j30090540876219_2_alg».proof.Proof.Gen.KernelIdeal.Skeleton
import proofs.«141260_j30090540876219_2_alg».proof.Proof.Gen.KernelIdeal.Launch
import proofs.«141260_j30090540876219_2_alg».proof.Proof.Gen.KernelIdeal.Points
import proofs.«141260_j30090540876219_2_alg».proof.Proof.Gen.KernelIdeal.Frame
import proofs.«141260_j30090540876219_2_alg».proof.Proof.Gen.ReferenceIdeal
import proofs.«141260_j30090540876219_2_alg».proof.Proof.Gen.Pre_finite_inputs
import proofs.«141260_j30090540876219_2_alg».proof.Proof.Gen.KernelIdeal.Value
import proofs.«141260_j30090540876219_2_alg».proof.Proof.Gen.ReferenceIdeal.Run
import proofs.«141260_j30090540876219_2_alg».proof.Proof.Gen.ReferenceIdeal.Read
import proofs.«141260_j30090540876219_2_alg».proof.Proof.Bridge
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Narrowing the left block to the shorter format and widening it back is the identity on the extended reals. -/
theorem preserves : Cert.preserves_Kernel_KernelIdeal := IdealRules.truncf_extf.statement _ .f32 .bf16

/-- Both programs end with the plain layer A·W + b of the same arrays. -/
theorem algebraic : Cert.algebraic_KernelIdeal_ReferenceIdeal := by
  intro m ρ m' ρ' hpre hagree
  refine ⟨fun c => Cert.Dense.plainArr
      (Cert.ReferenceIdeal.Read.val_main_v10 (F := Ideal) (Cert.Dense.Kernel.ids m c) (Cert.Dense.Kernel.table m c)
        (Cert.Dense.Kernel.ebias m c))
      (Cert.Dense.Kernel.weight m c) (Cert.ReferenceIdeal.Read.val_main_v12 (F := Ideal) (Cert.Dense.Kernel.dbias m c)), ?_, ?_⟩
  · exact (θ_run Cert.KernelIdeal.defs _ _).mono
      (fun r h c => ⟨(h c).1.trans (Cert.Dense.Kernel.result_eq m hpre c), (h c).2⟩) (Cert.Dense.Kernel.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v14_eq, Cert.Dense.Ref.result_eq, (hagree c).1, (hagree c).2.1,
      (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
